-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.CaseValues.lean ====
/-
  What one grid point leaves behind, case by case, as the body's pure arithmetic.

  The body keeps a [2048, 1024] accumulator between the points of one sweep over the contracted axis. Writing
  `x` for the point's [2048, 512] block of the left matrix, `w` for its [1024, 512] block of the right matrix and
  `acc` for what the accumulator held on entry, every point leaves `acc + x·wᵀ` in the accumulator (`k0_pay2`);
  the first point of a sweep first overwrites `acc` with zeros (`k0_pay1`), and the last point of a sweep also
  stores `0 − (acc' − b)` into the output block (`k0_pay3`), `acc'` the accumulator it has just updated and `b`
  the point's [1, 1024] row of column offsets broadcast down the rows.

  Each lemma reads back the stores one case's run made (each a single store covering the whole buffer, whose
  loads read whole buffers) and is stated for any float instance.
-/
import proofs.«145684_j66468913872924_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The zero offsets of a store or load that starts at the buffer's origin. -/
theorem origin : (![0, 0] : Fin 2 → Nat) = fun _ => 0 := funext fun a => by fin_cases a <;> rfl

/-- First point of a sweep: the accumulator is zeroed, read back, and left at `0 + x·wᵀ`. -/
theorem acc_first (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i)
    (x0 : Vec F S2048x512 .f32) (x1 : Vec F S1024x512 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) origin, View.readCov_unit_zero (S := S2048x1024) _ origin]
  simp only [View.readAt_eq_ld, h3.read_unread, h4.read_unread, View.ld_unit_zero (S := S2048x512) origin,
    View.ld_unit_zero (S := S1024x512) origin, View.ld_unit_zero (S := S2048x1024) origin]

/-- A middle point of a sweep: the accumulator goes from `acc` to `acc + x·wᵀ`. -/
theorem acc_middle (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i)
    (x0 : Vec F S2048x512 .f32) (x1 : Vec F S1024x512 .f32) (x2 : Vec F S1x1024 .f32) (xs0 : Vec F S2048x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero origin]
  simp only [View.readAt_eq_ld, h3.read_unread, h4.read_unread, h7.read_unread, View.ld_unit_zero (S := S2048x512) origin,
    View.ld_unit_zero (S := S1024x512) origin, View.ld_unit_zero (S := S2048x1024) origin]

/-- Last point of a sweep, the accumulator: again `acc + x·wᵀ`. -/
theorem acc_last (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .f32) (x1 : Vec F S1024x512 .f32) (x2 : Vec F S1x1024 .f32) (xs0 : Vec F S2048x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin]
  simp only [View.readAt_eq_ld, h3.read_unread, h4.read_unread, h7.read_unread, View.ld_unit_zero (S := S2048x512) origin,
    View.ld_unit_zero (S := S1024x512) origin, View.ld_unit_zero (S := S2048x1024) origin]

/-- Last point of a sweep, the output block: `0 − ((acc + x·wᵀ) − b)`, the updated accumulator read back. -/
theorem out_last (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .f32) (x1 : Vec F S1024x512 .f32) (x2 : Vec F S1x1024 .f32) (xs0 : Vec F S2048x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin, View.readCov_unit_zero (S := S2048x1024) _ origin]
  simp only [View.readAt_eq_ld, h3.read_unread, h4.read_unread, h5.read_unread, h7.read_unread,
    View.ld_unit_zero (S := S2048x512) origin, View.ld_unit_zero (S := S1024x512) origin,
    View.ld_unit_zero (S := S2048x1024) origin, View.ld_unit_zero (S := S1x1024) origin]

end Cert.KernelIdeal.CaseValues

end
-- ==== Proof.Entries.lean ====
/-
  The body's three pure terms read at one entry, over the extended reals.

  With `x` a [2048, 512] block, `w` a [1024, 512] block, `acc` a [2048, 1024] block and `b` a [1, 1024] row:
    the zero block is 0 everywhere;
    the accumulator step at (r, q) is  acc(r, q) + Σ_{k < 512} x(r, k) · w(q, k)
      — the matrix unit's product contracts the second axis of both operands, starts from a zero block, and the
        narrowing of its operands to half precision is the identity on extended reals;
    the output block at (r, q) is  0 − (acc(r, q) − b(0, q))
      — the row is broadcast down the 2048 rows, and the negation is spelled as a subtraction from zero.
-/
import proofs.«145684_j66468913872924_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Entries

open Cert.KernelIdeal Cert.KernelIdeal.Gen

/-- The product's left operand is read in the output entry's row; -/
theorem left_row (i : S2048x1024.Idx) (u : dot_S2048x512_S1024x512_S2048x1024_1_1_0_0_n_n.contr.Idx) :
    (dot_S2048x512_S1024x512_S2048x1024_1_1_0_0_n_n.lhsIdx i u 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl

/-- the right operand in the ROW numbered by the output entry's column (the product is with the transpose). -/
theorem right_row (i : S2048x1024.Idx) (u : dot_S2048x512_S1024x512_S2048x1024_1_1_0_0_n_n.contr.Idx) :
    (dot_S2048x512_S1024x512_S2048x1024_1_1_0_0_n_n.rhsIdx i u 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl

/-- One block product from a zero start, at (r, q): Σ_{k < 512} x(r, k) · w(q, k). -/
theorem product_entry (x : FVec Ideal S2048x512 .bf16) (w : FVec Ideal S1024x512 .bf16) (r : Fin 2048) (q : Fin 1024) :
    matmul (F := Ideal) dot_S2048x512_S1024x512_S2048x1024_1_1_0_0_n_n none x w (constant S2048x1024 .f32 0x00000000#32) (ix2 r q)
      = ∑ k : Fin 512, x (ix2 r k) * w (ix2 q k) := by
  show FloatOps.matmul dot_S2048x512_S1024x512_S2048x1024_1_1_0_0_n_n none x w (constant (F := Ideal) S2048x1024 .f32 0x00000000#32) (ix2 r q) = _
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 r q) ((contrEquiv1 dot_S2048x512_S1024x512_S2048x1024_1_1_0_0_n_n 512 rfl rfl).symm k) = ix2 r k := funext fun a => Fin.ext (by
    match a with
    | ⟨0, _⟩ => exact left_row _ _
    | ⟨1, _⟩ => exact (dot_S2048x512_S1024x512_S2048x1024_1_1_0_0_n_n.lhsIdx_val_of_single rfl _ _).trans hk)
  have er : dot_S2048x512_S1024x512_S2048x1024_1_1_0_0_n_n.rhsIdx (ix2 r q) ((contrEquiv1 dot_S2048x512_S1024x512_S2048x1024_1_1_0_0_n_n 512 rfl rfl).symm k) = ix2 q k := funext fun a => Fin.ext (by
    match a with
    | ⟨0, _⟩ => exact right_row _ _
    | ⟨1, _⟩ => exact (dot_S2048x512_S1024x512_S2048x1024_1_1_0_0_n_n.rhsIdx_val_of_single rfl _ _).trans hk)
  rw [el, er]

/-- The zero block. -/
theorem zeros_entry (j : S2048x1024.Idx) : k0_pay1 (F := Ideal) j = 0 := by
  unfold k0_pay1
  simp only [shapeCast_self]
  exact Ideal.ofBits_zero_f32

/-- The accumulator step at (r, q). -/
theorem step_entry (x : Vec Ideal S2048x512 .f32) (w : Vec Ideal S1024x512 .f32) (acc : Vec Ideal S2048x1024 .f32)
    (r : Fin 2048) (q : Fin 1024) :
    k0_pay2 (F := Ideal) x w acc (ix2 r q) = acc (ix2 r q) + ∑ k : Fin 512, x (ix2 r k) * w (ix2 q k) := by
  unfold k0_pay2
  simp only [shapeCast_self]
  exact congrArg (acc (ix2 r q) + ·) (product_entry (truncf .bf16 x bitsLt_bf16_f32) (truncf .bf16 w bitsLt_bf16_f32) r q)

/-- The output block at (r, q). -/
theorem out_entry (acc : Vec Ideal S2048x1024 .f32) (b : Vec Ideal S1x1024 .f32) (r : Fin 2048) (q : Fin 1024) :
    k0_pay3 (F := Ideal) acc b (ix2 r q) = 0 - (acc (ix2 r q) - b (ix2 (0 : Fin 1) q)) := by
  unfold k0_pay3
  simp only [shapeCast_self]
  show Ideal.ofBits .f32 0x00000000#32 - (acc (ix2 r q) - broadcastTo S2048x1024 b broadcasts_S1x1024_S2048x1024 (ix2 r q)) = _
  rw [Ideal.ofBits_zero_f32, broadcastTo_1b_ab_apply]

end Cert.KernelIdeal.Entries

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.Spec.lean ====
/-
  The result both programs compute, as one function of the three [4096, 4096] matrices x, y, w over the extended
  reals, and the one algebraic law that joins the two ways of computing it.

    result(i, j) = −( Σ_{k < 4096} x(i, k) · w(j, k)  −  offset(j) ),      offset(j) = 0 + Σ_{k < 4096} y(j, k) · w(j, k).

  One side forms the inner sum over all 4096 indices at once and negates. The other accumulates it from zero in
  8 consecutive blocks of 512 indices and forms the negation as a subtraction from zero:
    0 − ( (0 + Σ_{s < 8} Σ_{k < 512} x(i, 512 s + k) · w(j, 512 s + k)) − offset(j) ).
  The two agree for ALL extended reals: regrouping a finite sum into consecutive blocks needs only that addition is
  commutative and associative, `0 + z = z`, and `0 − z = −z`. No entry need be finite.
-/
import Idealize.ShloMosaic.PureOps.Ideal
import Idealize.ShloMosaic.Lib.ValueIdx
import proofs.«145684_j66468913872924_2_alg».proof.Proof.LibSumBlocks

noncomputable section

open Idealize.ShloMosaic Idealize.ShloMosaic.ValueIdx
open scoped BigOperators

namespace Cert.Spec

/-- The shape of all three arguments and of the result. -/
abbrev Sq : Shape := ⟨2, ![4096, 4096]⟩

/-- Column `j`'s offset: the inner product of row `j` of `y` with row `j` of `w`, summed from zero. -/
def offset (y w : Sq.Idx → EReal) (j : Fin 4096) : EReal :=
  0 + ∑ k : Fin 4096, y (ix2 j k) * w (ix2 j k)

/-- The result: minus (row `i` of `x` against row `j` of `w`, less column `j`'s offset). -/
def result (x y w : Sq.Idx → EReal) : Sq.Idx → EReal := fun i =>
  -((∑ k : Fin 4096, x (ix2 (i 0) k) * w (ix2 (i 1) k)) - offset y w (i 1))

/-- 4096 indices as 8 consecutive blocks of 512. -/
theorem sum_8x512 {M : Type*} [AddCommMonoid M] (f : Fin 4096 → M) :
    ∑ u, f u = ∑ s : Fin 8, ∑ k : Fin 512, f ⟨512 * s.val + k.val, by have := s.isLt; have := k.isLt; omega⟩ :=
  Cert.SumBlocks.sum_blocks 8 512 f

/-- THE LAW. A sum of 4096 terms accumulated from zero in 8 blocks of 512 (`g s` the s-th block's partial sum),
    less an offset, subtracted from zero, is minus (the whole sum less the offset). -/
theorem accumulated_eq (f : Fin 4096 → EReal) (g : ℕ → EReal) (o : EReal)
    (hg : ∀ s : Fin 8, g s.val = ∑ k : Fin 512, f ⟨512 * s.val + k.val, by have := s.isLt; have := k.isLt; omega⟩) :
    0 - ((0 + ∑ s ∈ Finset.range 8, g s) - o) = -((∑ u, f u) - o) := by
  rw [zero_sub, zero_add, Finset.sum_range, sum_8x512 f]
  exact congrArg (fun z => -(z - o)) (Finset.sum_congr rfl fun s _ => hg s)

end Cert.Spec

end
-- ==== Proof.Blocks.lean ====
/-
  Where each window's block sits in its array, and what the row of offsets holds.

  The grid is 2 × 4 × 8, and point `t = 32 i + 8 j + s` handles row block `i` (2048 rows of x and of the result),
  column block `j` (1024 columns of the result = 1024 rows of w) and contraction block `s` (512 indices):
    the x block at `t` is   x[2048 i + r, 512 s + k],
    the w block at `t` is   w[1024 j + q, 512 s + k],
    the offsets block is     o[0, 1024 j + q],
  where `o` is the [1, 4096] row that the host part of the program writes before the call: row sums of `y · w`
  (entry by entry), summed from zero and laid out as one row. So `o[0, j] = 0 + Σ_k y(j, k) · w(j, k)`.
-/
import proofs.«145684_j66468913872924_2_alg».proof.Proof.Gen.KernelIdeal.Frame
import proofs.«145684_j66468913872924_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The block indices of the four windows at point `t = 32 i + 8 j + s`: (i, s), (j, s), (0, j), (i, j). -/
theorem block_index : ∀ t : Fin cfg0.N,
    win0_0.index t 0 = t.val / 32 % 2 ∧ win0_0.index t 1 = t.val % 8 ∧
    win0_1.index t 0 = t.val / 8 % 4 ∧ win0_1.index t 1 = t.val % 8 ∧
    win0_2.index t 0 = 0 ∧ win0_2.index t 1 = t.val / 8 % 4 ∧
    win0_3.index t 0 = t.val / 32 % 2 ∧ win0_3.index t 1 = t.val / 8 % 4 :=
  (by decide +kernel : ∀ t : Fin grid0.N,
    win0_0.index t 0 = t.val / 32 % 2 ∧ win0_0.index t 1 = t.val % 8 ∧
    win0_1.index t 0 = t.val / 8 % 4 ∧ win0_1.index t 1 = t.val % 8 ∧
    win0_2.index t 0 = 0 ∧ win0_2.index t 1 = t.val / 8 % 4 ∧
    win0_3.index t 0 = t.val / 32 % 2 ∧ win0_3.index t 1 = t.val / 8 % 4)

/-- The x block at `t`, entry (r, k), is x[2048 i + r, 512 s + k]. -/
theorem left_block (c : Dev nD) (t : Fin cfg0.N) (r : Fin 2048) (k : Fin 512) :
    (iblk m c 0 t : Vec Ideal S2048x512 .f32) (ix2 r k)
      = m ((c : Thread nD τ).loc main_arg0)
          (ix2 (⟨2048 * (t.val / 32 % 2) + r.val, by have := r.isLt; omega⟩ : Fin 4096)
               (⟨512 * (t.val % 8) + k.val, by have := k.isLt; omega⟩ : Fin 4096)) := by
  have hi := block_index t
  unfold iblk
  rw [View.read_apply]
  show V m c main_arg0 _ = _
  rw [V_main_arg0]
  congr 1
  funext a
  apply Fin.ext
  match a with
  | ⟨0, _⟩ => show win0_0.index t 0 * 2048 + 1 * r.val = 2048 * (t.val / 32 % 2) + r.val; rw [hi.1]; omega
  | ⟨1, _⟩ => show win0_0.index t 1 * 512 + 1 * k.val = 512 * (t.val % 8) + k.val; rw [hi.2.1]; omega

/-- The w block at `t`, entry (q, k), is w[1024 j + q, 512 s + k]. -/
theorem right_block (c : Dev nD) (t : Fin cfg0.N) (q : Fin 1024) (k : Fin 512) :
    (iblk m c 1 t : Vec Ideal S1024x512 .f32) (ix2 q k)
      = m ((c : Thread nD τ).loc main_arg2)
          (ix2 (⟨1024 * (t.val / 8 % 4) + q.val, by have := q.isLt; omega⟩ : Fin 4096)
               (⟨512 * (t.val % 8) + k.val, by have := k.isLt; omega⟩ : Fin 4096)) := by
  have hi := block_index t
  unfold iblk
  rw [View.read_apply]
  show V m c main_arg2 _ = _
  rw [V_main_arg2]
  congr 1
  funext a
  apply Fin.ext
  match a with
  | ⟨0, _⟩ => show win0_1.index t 0 * 1024 + 1 * q.val = 1024 * (t.val / 8 % 4) + q.val; rw [hi.2.2.1]; omega
  | ⟨1, _⟩ => show win0_1.index t 1 * 512 + 1 * k.val = 512 * (t.val % 8) + k.val; rw [hi.2.2.2.1]; omega

/-- The row of offsets as the call finds it: the host part's row sums of `y · w`, recast as one row. -/
theorem offsets_row (c : Dev nD) :
    (V m c main_v2 : S1x4096.Idx → EReal)
      = shapeCast S1x4096 (Host.reduceAdd (F := Ideal) (mulf (m ((c : Thread nD τ).loc main_arg1)) (m ((c : Thread nD τ).loc main_arg2)))
          (constant S_ .f32 0x00000000#32) reducesTo_S4096x4096_S4096_d1 h_S_) shapeCasts_S4096_S1x4096 := by
  dsimp only [Gen.V, Gen.hostOps0]
  after_results
  rfl

/-- Its entry (0, j) is column `j`'s offset: 0 + Σ_k y(j, k) · w(j, k). -/
theorem offsets_row_entry (c : Dev nD) (j : Fin 4096) :
    (V m c main_v2 : S1x4096.Idx → EReal) (ix2 (0 : Fin 1) j)
      = Cert.Spec.offset (m ((c : Thread nD τ).loc main_arg1)) (m ((c : Thread nD τ).loc main_arg2)) j := by
  rw [offsets_row, shapeCast_a_1a_apply]
  simp only [Host.reduceAdd, Ideal.hostReduceAdd_def]
  rw [Ideal.hostReduceAdd_single reducesTo_S4096x4096_S4096_d1 (by decide)]
  unfold Cert.Spec.offset
  refine congrArg₂ (· + ·) Ideal.ofBits_zero_f32 (Finset.sum_congr rfl fun k _ => ?_)
  have entrywise : ∀ (y w : S4096x4096.Idx → EReal) (a b : S4096x4096.Idx), a = b → mulf (F := Ideal) (φ := .f32) y w a = y b * w b :=
    fun y w a b h => h ▸ rfl
  exact entrywise _ _ _ _ (funext fun a => Fin.ext (by match a with | ⟨0, _⟩ => rfl | ⟨1, _⟩ => rfl))

/-- The offsets block at `t`, entry (0, q), is column `1024 j + q`'s offset. -/
theorem offsets_block (c : Dev nD) (t : Fin cfg0.N) (q : Fin 1024) :
    (iblk m c 2 t : Vec Ideal S1x1024 .f32) (ix2 (0 : Fin 1) q)
      = Cert.Spec.offset (m ((c : Thread nD τ).loc main_arg1)) (m ((c : Thread nD τ).loc main_arg2))
          (⟨1024 * (t.val / 8 % 4) + q.val, by have := q.isLt; omega⟩ : Fin 4096) := by
  have hi := block_index t
  rw [← offsets_row_entry m c]
  unfold iblk
  rw [View.read_apply]
  show V m c main_v2 _ = _
  congr 1
  funext a
  apply Fin.ext
  match a with
  | ⟨0, _⟩ => show win0_2.index t 0 * 1 + 1 * 0 = 0; rw [hi.2.2.2.2.1]
  | ⟨1, _⟩ => show win0_2.index t 1 * 1024 + 1 * q.val = 1024 * (t.val / 8 % 4) + q.val; rw [hi.2.2.2.2.2.1]; omega

end Cert.KernelIdeal.Blocks

end
-- ==== Proof.Sweep.lean ====
/-
  One sweep over the contracted axis: what the accumulator holds after it, and the output block stored at its end.

  At point `n = 32 i + 8 j + s` the accumulator step adds, at entry (r, q), the partial inner product
      P_n(r, q) = Σ_{k < 512} x(2048 i + r, 512 s + k) · w(1024 j + q, 512 s + k).
  The first point of a sweep (s = 0) starts from the zero block, so after the point at offset `d` of a sweep starting
  at `b` the accumulator holds `0 + Σ_{s ≤ d} P_{b+s}` — the general statement about a fold each of whose steps adds a
  term, applied to the three cases' values. At the last point (d = 7) the stored output block is
      0 − ( (0 + Σ_{s < 8} P_{b+s}(r, q)) − offset(1024 j + q) ),
  and the eight partial products together are the whole inner product over 4096 indices: the block (i, j) of the
  result.
-/
import proofs.«145684_j66468913872924_2_alg».proof.Proof.Gen.KernelIdeal.Value
import proofs.«145684_j66468913872924_2_alg».proof.Proof.CaseValues
import proofs.«145684_j66468913872924_2_alg».proof.Proof.Entries
import proofs.«145684_j66468913872924_2_alg».proof.Proof.Blocks
import proofs.«145684_j66468913872924_2_alg».proof.Proof.Spec

noncomputable section

open Idealize.ShloMosaic Idealize.ShloMosaic.TcCoe Idealize.SL.Sem Idealize.ShloMosaic.ValueIdx

namespace Cert.KernelIdeal.Sweep

open Cert.KernelIdeal Cert.KernelIdeal.Gen

/-- The partial inner product point `n` adds at entry `e` of the accumulator, from the whole matrices `x` and `w`
    (written for every natural `n`; only the grid's 64 points are ever used). -/
def partialProduct (x w : S4096x4096.Idx → EReal) (n : ℕ) (e : S2048x1024.Idx) : EReal :=
  ∑ k : Fin 512,
    x (ix2 (⟨2048 * (n / 32 % 2) + (e 0).val, by have := idx2_lt0 e; omega⟩ : Fin 4096)
           (⟨512 * (n % 8) + k.val, by have := k.isLt; omega⟩ : Fin 4096))
      * w (ix2 (⟨1024 * (n / 8 % 4) + (e 1).val, by have := idx2_lt1 e; omega⟩ : Fin 4096)
               (⟨512 * (n % 8) + k.val, by have := k.isLt; omega⟩ : Fin 4096))

variable (m : (ℓ : Loc nD τ sig) → Buf (Elt Ideal) ℓ)

/-- Point `n`'s partial product of the arguments as launched. -/
abbrev addend (c : Dev nD) (n : ℕ) (e : S2048x1024.Idx) : EReal :=
  partialProduct (m ((c : Thread nD τ).loc main_arg0)) (m ((c : Thread nD τ).loc main_arg2)) n e

/-- The accumulator step at point `t`, at any entry: what was there plus the point's partial product. -/
theorem step_at (c : Dev nD) (t : Fin cfg0.N) (acc : Vec Ideal S2048x1024 .f32) (e : S2048x1024.Idx) :
    k0_pay2 (F := Ideal) (iblk m c 0 t) (iblk m c 1 t) acc e = acc e + addend m c t.val e := by
  obtain ⟨r, q, rfl⟩ : ∃ (r : Fin 2048) (q : Fin 1024), e = ix2 r q := ⟨e 0, e 1, eq_ix2 e⟩
  refine (Entries.step_entry (iblk m c 0 t) (iblk m c 1 t) acc r q).trans ?_
  show _ = acc (ix2 r q) + partialProduct _ _ t.val (ix2 r q)
  unfold partialProduct
  refine congrArg (acc (ix2 r q) + ·) (Finset.sum_congr rfl fun k _ => ?_)
  rw [Blocks.left_block m c t r k, Blocks.right_block m c t q k]

/-- What a sweep's first point leaves in the accumulator: the step from the zero block. -/
theorem left_by_first (c : Dev nD) (n : ℕ) (hb : n < cfg0.N) (h0 : n % 8 = 0) (acc : Vec Ideal S2048x1024 .f32) :
    Value.scAt0_0 m c n hb acc = k0_pay2 (F := Ideal) (iblk m c 0 ⟨n, hb⟩) (iblk m c 1 ⟨n, hb⟩) (k0_pay1 (F := Ideal)) := by
  have h1 : ¬n % 8 = 7 := by omega
  unfold Value.scAt0_0
  rw [dif_pos h0, dif_neg h1]
  exact CaseValues.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h))
    (iblk m c 0 (⟨n, hb⟩ : Fin cfg0.N)) (iblk m c 1 (⟨n, hb⟩ : Fin cfg0.N)) (iblk m c 2 (⟨n, hb⟩ : Fin cfg0.N))

/-- What any later point of a sweep leaves in the accumulator: the step from what the point before left. -/
theorem left_by_later (c : Dev nD) (n : ℕ) (hb : n < cfg0.N) (h0 : ¬n % 8 = 0) (acc : Vec Ideal S2048x1024 .f32) :
    Value.scAt0_0 m c n hb acc = k0_pay2 (F := Ideal) (iblk m c 0 ⟨n, hb⟩) (iblk m c 1 ⟨n, hb⟩) acc := by
  unfold Value.scAt0_0
  rw [dif_neg h0]
  by_cases h1 : n % 8 = 7
  · rw [dif_pos h1]
    exact CaseValues.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1)
      (iblk m c 0 (⟨n, hb⟩ : Fin cfg0.N)) (iblk m c 1 (⟨n, hb⟩ : Fin cfg0.N)) (iblk m c 2 (⟨n, hb⟩ : Fin cfg0.N)) acc
  · rw [dif_neg h1]
    exact CaseValues.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h))
      (iblk m c 0 (⟨n, hb⟩ : Fin cfg0.N)) (iblk m c 1 (⟨n, hb⟩ : Fin cfg0.N)) (iblk m c 2 (⟨n, hb⟩ : Fin cfg0.N)) acc

/-- AFTER THE POINT AT OFFSET `t % 8` OF ITS SWEEP the accumulator holds zero plus the partial products of the
    sweep's points so far. -/
theorem acc_after (c : Dev nD) (t : Fin cfg0.N) (e : S2048x1024.Idx) :
    (outsAt0 m c t.val t.isLt).2 e
      = 0 + ∑ s ∈ Finset.range (t.val % 8 + 1), addend m c (8 * (t.val / 8) + s) e := by
  have hN : cfg0.N = 64 := N_0
  rw [Value.soutsAt0_0_eq m c t]
  refine Pipeline.accAt_add_apply (fun n h => Value.scAt0_0 m c n h (VS0_0.read (Elt Ideal) VS0_0.junk)) (Value.scAt0_0 m c)
    (fun _ => (0 : EReal)) (addend m c) (8 * (t.val / 8)) 7 ?first ?later (t.val % 8) (by omega) _ e
  case first =>
    intro h i
    show Value.scAt0_0 m c (8 * (t.val / 8)) h (VS0_0.read (Elt Ideal) VS0_0.junk) i = _
    rw [left_by_first m c (8 * (t.val / 8)) h (by omega) _]
    refine (step_at m c ⟨8 * (t.val / 8), h⟩ (k0_pay1 (F := Ideal)) i).trans ?_
    rw [Entries.zeros_entry]
  case later =>
    intro n h acc i hlo hhi
    rw [left_by_later m c n h (by omega) acc]
    exact step_at m c ⟨n, h⟩ acc i

/-- THE OUTPUT BLOCK stored at the last point `t` of a sweep is block (i, j) of the result: at entry (r, q) it is
    the result at (2048 i + r, 1024 j + q). -/
theorem out_at_last (c : Dev nD) (t : Fin cfg0.N) (h7 : t.val % 8 = 7) (r : Fin 2048) (q : Fin 1024) :
    (outsAt0 m c t.val t.isLt).1 (ix2 r q)
      = Cert.Spec.result (m ((c : Thread nD τ).loc main_arg0)) (m ((c : Thread nD τ).loc main_arg1)) (m ((c : Thread nD τ).loc main_arg2))
          (ix2 (⟨2048 * (t.val / 32 % 2) + r.val, by have := r.isLt; omega⟩ : Fin 4096)
               (⟨1024 * (t.val / 8 % 4) + q.val, by have := q.isLt; omega⟩ : Fin 4096)) := by
  have hN : cfg0.N = 64 := N_0
  have ht : t.val < 64 := lt_of_lt_of_eq t.isLt hN
  have h0 : ¬t.val % 8 = 0 := by omega
  -- the accumulator this point leaves is the step from what the point before left,
  have hacc : (outsAt0 m c t.val t.isLt).2
      = k0_pay2 (F := Ideal) (iblk m c 0 t) (iblk m c 1 t) (outsAt0 m c (t.val - 1) (Nat.lt_of_le_of_lt (Nat.sub_le _ _) t.isLt)).2 := by
    rw [outsAt0_C m c t h0 h7]
    dsimp only
    exact CaseValues.acc_last c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2
  -- and the block it stores is the epilogue of that updated accumulator
  have hout : (outsAt0 m c t.val t.isLt).1
      = k0_pay3 (F := Ideal) (outsAt0 m c t.val t.isLt).2 (iblk m c 2 t) := by
    rw [hacc, outsAt0_C m c t h0 h7]
    dsimp only
    exact CaseValues.out_last c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2
  rw [hout]
  refine (Entries.out_entry (outsAt0 m c t.val t.isLt).2 (iblk m c 2 t) r q).trans ?_
  rw [acc_after m c t (ix2 r q), Blocks.offsets_block m c t q, h7]
  unfold Cert.Spec.result
  refine Cert.Spec.accumulated_eq _ (fun s => addend m c (8 * (t.val / 8) + s) (ix2 r q)) _ fun s => ?_
  have hs := s.isLt
  have e1 : (8 * (t.val / 8) + s.val) / 32 % 2 = t.val / 32 % 2 := by omega
  have e2 : (8 * (t.val / 8) + s.val) / 8 % 4 = t.val / 8 % 4 := by omega
  have e3 : (8 * (t.val / 8) + s.val) % 8 = s.val := by omega
  show partialProduct _ _ (8 * (t.val / 8) + s.val) (ix2 r q) = _
  unfold partialProduct
  simp only [e1, e2, e3]

end Cert.KernelIdeal.Sweep

end
-- ==== Proof.Whole.lean ====
/-
  From the stored blocks to the whole result array.

  The output window is written back only at the last point of each sweep, `t = 32 i + 8 j + 7`, and what is
  written there is block (i, j) of `result`: rows 2048 i … 2048 i + 2047, columns 1024 j … 1024 j + 1023. Every
  entry (a, b) of the [4096, 4096] array lies in exactly such a block — that of `i = a / 2048`, `j = b / 1024` — so
  after the run the array is `result` of the three arguments.
-/
import proofs.«145684_j66468913872924_2_alg».proof.Proof.Gen.KernelIdeal.Value
import proofs.«145684_j66468913872924_2_alg».proof.Proof.Sweep

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- `result` of the three arguments as launched, as contents of the result array. -/
abbrev resultArray (c : Dev nD) : Buf (Elt Ideal) ((c : Thread nD τ).loc main_v3) :=
  Cert.Spec.result (m ((c : Thread nD τ).loc main_arg0)) (m ((c : Thread nD τ).loc main_arg1)) (m ((c : Thread nD τ).loc main_arg2))

/-- What a writing-back point writes is its block of `result`. -/
theorem flushed_eq (c : Dev nD) (t : Fin cfg0.N) (hf : (cfg0.win 3).flush t = true) :
    (dats m 0 c).flushed 3 t = ((cfg0.win 3).blk t).view.read (Elt Ideal) (resultArray m c) := by
  have h7 : t.val % 8 = 7 := (flush0_3 t).mp hf
  have hi := Blocks.block_index t
  rw [Value.flushed3]
  funext e
  obtain ⟨r, q, rfl⟩ : ∃ (r : Fin 2048) (q : Fin 1024), e = ix2 r q := ⟨e 0, e 1, eq_ix2 e⟩
  rw [View.read_apply]
  show (outsAt0 m c t.val t.isLt).1 (ix2 r q) = resultArray m c (((cfg0.win 3).blk t).view.emb (ix2 r q))
  rw [Sweep.out_at_last m c t h7 r q]
  congr 1
  funext a
  apply Fin.ext
  match a with
  | ⟨0, _⟩ => show 2048 * (t.val / 32 % 2) + r.val = win0_3.index t 0 * 2048 + 1 * r.val; rw [hi.2.2.2.2.2.2.1]; omega
  | ⟨1, _⟩ => show 1024 * (t.val / 8 % 4) + q.val = win0_3.index t 1 * 1024 + 1 * q.val; rw [hi.2.2.2.2.2.2.2]; omega

/-- Every entry of the array is in the block of some writing-back point. -/
theorem covered (c : Dev nD) (i : S4096x4096.Idx) :
    ∃ t : Fin cfg0.N, (cfg0.win 3).flush t = true ∧ i ∈ ((cfg0.win 3).blk t).view.set := by
  have hN : cfg0.N = 64 := N_0
  have hi0 : (i 0).val < 4096 := idx2_lt0 i
  have hi1 : (i 1).val < 4096 := idx2_lt1 i
  obtain ⟨t, ht⟩ : ∃ t : Fin cfg0.N, t.val = 32 * ((i 0).val / 2048) + 8 * ((i 1).val / 1024) + 7 :=
    ⟨⟨32 * ((i 0).val / 2048) + 8 * ((i 1).val / 1024) + 7, by omega⟩, rfl⟩
  have hi := Blocks.block_index t
  refine ⟨t, (flush0_3 t).mpr (by omega), ?_⟩
  show i ∈ ((View.whole main_v3).slice (win0_3.rect t)).set
  rw [View.set_slice_whole, Rect.mem_set_unit]
  intro a
  match a with
  | ⟨0, _⟩ =>
    show win0_3.index t 0 * 2048 ≤ (i 0).val ∧ (i 0).val < win0_3.index t 0 * 2048 + 2048
    rw [hi.2.2.2.2.2.2.1]; omega
  | ⟨1, _⟩ =>
    show win0_3.index t 1 * 1024 ≤ (i 1).val ∧ (i 1).val < win0_3.index t 1 * 1024 + 1024
    rw [hi.2.2.2.2.2.2.2]; omega

/-- After the run the result array is `result` of the arguments. -/
theorem final (c : Dev nD) : (dats m 0 c).arrAt 3 cfg0.N = resultArray m c :=
  (dats m 0 c).arrAt_eq_of_cover 3 (resultArray m c) (flushed_eq m c) (covered c)

/-- The run: it terminates without fault, the result array at `result` of the arguments, the arguments unchanged. -/
theorem run : θ_run defs (onTc (τ := τ) (main (F := Ideal))) ⟨m, fun _ => 0, ρ⟩ fun r => ∀ c : Dev nD,
      r.2.mem ((c : Thread nD τ).loc main_v3) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceIsResult.lean ====
/-
  The reference's composed term is `result`.

  Read one operation at a time: the product of x with the transpose of w is Σ_k x(i, k) · w(j, k); the row sums of
  `y · w` start from the zero word; the two broadcasts (a row, then that row down every row) make entry (i, j) of the
  subtrahend the offset of column j; then a subtraction and a negation. The three index functions those readings
  produce are the coordinate pairs (i, k), (j, k), (j, k).
-/
import proofs.«145684_j66468913872924_2_alg».proof.Proof.Gen.ReferenceIdeal.Read
import proofs.«145684_j66468913872924_2_alg».proof.Proof.Spec

noncomputable section

open Idealize.ShloMosaic Idealize.ShloMosaic.ValueIdx

namespace Cert.ReferenceIdeal.IsResult

open Cert.ReferenceIdeal Cert.ReferenceIdeal.Read

theorem reference_eq (x y w : S4096x4096.Idx → EReal) :
    val_main_v6 (F := Ideal) x y w = Cert.Spec.result x y w := by
  funext i
  have hl : ∀ k : Fin 4096, lidx_main_v0 i k = ix2 (i 0) k := fun k =>
    funext fun a => Fin.ext (by match a with | ⟨0, _⟩ => rfl | ⟨1, _⟩ => rfl)
  have hr : ∀ k : Fin 4096, ridx_main_v0 i k = ix2 (i 1) k := fun k =>
    funext fun a => Fin.ext (by match a with | ⟨0, _⟩ => rfl | ⟨1, _⟩ => rfl)
  have ho : ∀ k : Fin 4096, idx_main_v2 (idx_main_v3 (idx_main_v4 i)) k = ix2 (i 1) k := fun k =>
    funext fun a => Fin.ext (by match a with | ⟨0, _⟩ => rfl | ⟨1, _⟩ => rfl)
  rw [val_main_v6_apply, val_main_v5_apply, val_main_v0_apply, val_main_v4_apply, val_main_v3_apply, val_main_v2_apply]
  unfold Cert.Spec.result Cert.Spec.offset
  simp only [val_main_v1_apply, val_main_cst_apply, hl, hr, ho, Ideal.hostNegf_def, Ideal.negf_def, Ideal.subf_def,
    Ideal.mulf_def, Ideal.ofBits_def, Ideal.ofBits_zero_f32]
  rfl

end Cert.ReferenceIdeal.IsResult

end
-- ==== Proof.lean ====
/-
  The kernel against its reference, over the extended reals.

  Both programs take three [4096, 4096] matrices x, y, w and return the matrix
      result(i, j) = −( Σ_k x(i, k) · w(j, k) − offset(j) ),      offset(j) = 0 + Σ_k y(j, k) · w(j, k).
  The reference forms each inner product over all 4096 indices at once. The kernel computes the offsets on the
  host, then sweeps a 2 × 4 × 8 grid: for each [2048, 1024] block of the result it accumulates the inner products
  from zero in 8 blocks of 512 indices (the narrowing of the factors to half precision is the identity on extended
  reals), and at the last of the 8 points stores `0 − (accumulator − offsets)`. Regrouping the sum and `0 − z = −z`
  hold for all extended reals, so the precondition that the inputs are finite is never used.

  The modules: Spec (the result and the regrouping law), CaseValues (what one grid point leaves, case by case),
  Entries (the body's terms at an entry), Blocks (where each block sits in its array; the offsets row), Sweep (the
  accumulator over a sweep as a sum; the stored block), Whole (from blocks to the array; the kernel's run),
  ReferenceIsResult (the reference's term). The three frames are the generated ones (the reference's is its
  generated run with the result dropped); the idealization rewrote nothing, so that conjunct is trivial.
-/
import proofs.«145684_j66468913872924_2_alg».proof.Defs
import proofs.«145684_j66468913872924_2_alg».proof.Proof.Gen.Kernel
import proofs.«145684_j66468913872924_2_alg».proof.Proof.Gen.Kernel.Skeleton
import proofs.«145684_j66468913872924_2_alg».proof.Proof.Gen.Kernel.Launch
import proofs.«145684_j66468913872924_2_alg».proof.Proof.Gen.Kernel.Points
import proofs.«145684_j66468913872924_2_alg».proof.Proof.Gen.Kernel.Frame
import proofs.«145684_j66468913872924_2_alg».proof.Proof.Gen.KernelIdeal
import proofs.«145684_j66468913872924_2_alg».proof.Proof.Gen.KernelIdeal.Skeleton
import proofs.«145684_j66468913872924_2_alg».proof.Proof.Gen.KernelIdeal.Launch
import proofs.«145684_j66468913872924_2_alg».proof.Proof.Gen.KernelIdeal.Points
import proofs.«145684_j66468913872924_2_alg».proof.Proof.Gen.KernelIdeal.Frame
import proofs.«145684_j66468913872924_2_alg».proof.Proof.Gen.ReferenceIdeal
import proofs.«145684_j66468913872924_2_alg».proof.Proof.Gen.Pre_finite_inputs
import proofs.«145684_j66468913872924_2_alg».proof.Proof.Gen.KernelIdeal.Value
import proofs.«145684_j66468913872924_2_alg».proof.Proof.Gen.ReferenceIdeal.Run
import proofs.«145684_j66468913872924_2_alg».proof.Proof.Gen.ReferenceIdeal.Read
import proofs.«145684_j66468913872924_2_alg».proof.Proof.Whole
import proofs.«145684_j66468913872924_2_alg».proof.Proof.ReferenceIsResult
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the result array at `result` of those
    arguments: the kernel by its run read block by block, the reference by its composed term read entry by entry. -/
theorem algebraic : Cert.algebraic_KernelIdeal_ReferenceIdeal := by
  intro m ρ m' ρ' _ hagree
  refine ⟨fun c => Cert.KernelIdeal.Whole.resultArray m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2]
  exact Cert.ReferenceIdeal.IsResult.reference_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
